-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_40" .f32 0x3CCCCCCD#32 ((1 / 40 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩

class Facts : Prop where
  bcast_S_S1000000x40 : S_.BroadcastsInDim S1000000x40 (![] : Fin 0 → Fin S1000000x40.rank)
  reducesTo_S1000000x40_S_d0_1 : S1000000x40.ReducesTo [0, 1] S_
  h_S_ : 0 < S_.numel
  bcast_S_S40 : S_.BroadcastsInDim S40 (![] : Fin 0 → Fin S40.rank)
  reducesTo_S40_S_d0 : S40.ReducesTo [0] S_

variable [Facts]

def fn {F : FTy → Type} [FloatOps F] (main_arg0 : FVec F S1000000x40 .f32) (main_arg1 : IVec S40x1000000 32) (main_arg2 : FVec F S40 .f32) : IVec S_ 1 :=
  let main_v0 : FVec F S1000000x40 .f32 := Host.absf main_arg0
  let main_cst : FVec F S_ .f32 := constant S_ .f32 0x7F800000#32
  let main_v1 : FVec F S1000000x40 .f32 := broadcastInDim S1000000x40 ![] bcast_S_S1000000x40 main_cst
  let main_v2 : IVec S1000000x40 1 := cmpf .olt main_v0 main_v1
  let main_c : IVec S_ 1 := constantI S_ 1 1#1
  let main_v3 : IVec S_ 1 := (fun x v => Host.reduce IntOp.andi x v reducesTo_S1000000x40_S_d0_1 h_S_) main_v2 main_c
  let main_v4 : FVec F S40 .f32 := Host.absf main_arg2
  let main_cst_0 : FVec F S_ .f32 := constant S_ .f32 0x7F800000#32
  let main_v5 : FVec F S40 .f32 := broadcastInDim S40 ![] bcast_S_S40 main_cst_0
  let main_v6 : IVec S40 1 := cmpf .olt main_v4 main_v5
  let main_c_1 : IVec S_ 1 := constantI S_ 1 1#1
  let main_v7 : IVec S_ 1 := (fun x v => Host.reduce IntOp.andi x v reducesTo_S40_S_d0 h_S_) main_v6 main_c_1
  let main_v8 : IVec S_ 1 := andi main_v3 main_v7
  main_v8
-- ==== Kernel.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩
abbrev S1007616x40 : Shape := ⟨2, ![1007616, 40]⟩
abbrev S40x1007616 : Shape := ⟨2, ![40, 1007616]⟩
abbrev S1x1 : Shape := ⟨2, ![1, 1]⟩
abbrev S12288x40 : Shape := ⟨2, ![12288, 40]⟩
abbrev S40x12288 : Shape := ⟨2, ![40, 12288]⟩
abbrev S1x40 : Shape := ⟨2, ![1, 40]⟩
abbrev S1 : Shape := ⟨1, ![1]⟩

abbrev nBuf : Space → Nat
  | .hbm => 11
  | .vmem => 6
  | .smem => 0
  | _ => 0

abbrev bufTy : (tb : Table) → Fin (tcTables nBuf tb) → BufTy
  | .hbm, ⟨0, _⟩ => ⟨S1000000x40, .f32⟩
  | .hbm, ⟨1, _⟩ => ⟨S40x1000000, .i32⟩
  | .hbm, ⟨2, _⟩ => ⟨S40, .f32⟩
  | .hbm, ⟨3, _⟩ => ⟨S_, .f32⟩
  | .hbm, ⟨4, _⟩ => ⟨S_, .f32⟩
  | .hbm, ⟨5, _⟩ => ⟨S1007616x40, .f32⟩
  | .hbm, ⟨6, _⟩ => ⟨S_, .i32⟩
  | .hbm, ⟨7, _⟩ => ⟨S_, .i32⟩
  | .hbm, ⟨8, _⟩ => ⟨S40x1007616, .i32⟩
  | .hbm, ⟨9, _⟩ => ⟨S1x1, .f32⟩
  | .hbm, ⟨10, _⟩ => ⟨S_, .f32⟩
  | .local _ .vmem, ⟨0, _⟩ => ⟨S12288x40, .f32⟩
  | .local _ .vmem, ⟨1, _⟩ => ⟨S12288x40, .f32⟩
  | .local _ .vmem, ⟨2, _⟩ => ⟨S40x12288, .i32⟩
  | .local _ .vmem, ⟨3, _⟩ => ⟨S40x12288, .i32⟩
  | .local _ .vmem, ⟨4, _⟩ => ⟨S40, .f32⟩
  | .local _ .vmem, ⟨5, _⟩ => ⟨S1x1, .f32⟩
  | _, _ => ⟨S1000000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12288x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x12288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  pads_S1000000x40_S1007616x40_076160_000 : S1000000x40.Pads (![0, 0] : Fin 2 → Nat) ![7616, 0] ![0, 0] S1007616x40
  h_S_ : 0 < S_.numel
  pads_S40x1000000_S40x1007616_000_076160 : S40x1000000.Pads (![0, 0] : Fin 2 → Nat) ![0, 7616] ![0, 0] S40x1007616
  inb_S1x1_S1x1_0_0 : ∀ a, (![0, 0] : Fin 2 → Nat) a + S1x1.size a ≤ S1x1.size a
  h_S1x1 : 0 < S1x1.numel
  inb_S12288x40_S12288x40_0_0 : ∀ a, (![0, 0] : Fin 2 → Nat) a + S12288x40.size a ≤ S12288x40.size a
  h_S12288x40 : 0 < S12288x40.numel
  shapeCasts_S12288x40_S12288x40 : S12288x40.ShapeCasts S12288x40
  inb_S40x12288_S40x12288_0_0 : ∀ a, (![0, 0] : Fin 2 → Nat) a + S40x12288.size a ≤ S40x12288.size a
  h_S40x12288 : 0 < S40x12288.numel
  shapeCasts_S40x12288_S40x12288 : S40x12288.ShapeCasts S40x12288
  transposes_S40x12288_p1_0_S12288x40 : S40x12288.Transposes [1, 0] S12288x40
  inb_S40_S40_0 : ∀ a, (![0] : Fin 1 → Nat) a + S40.size a ≤ S40.size a
  h_S40 : 0 < S40.numel
  shapeCasts_S40_S1x40 : S40.ShapeCasts S1x40
  broadcasts_S1x40_S12288x40 : S1x40.Broadcasts S12288x40
  iota_S12288x40_d0_w32 : S12288x40.Iotas .tc 32 [0]
  reduces_S12288x40_S40 : S12288x40.Reduces [0] S40
  reduces_S1x40_S1 : S1x40.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12288x40.size a ≤ S1007616x40.size a
  hwx0_0 : ∀ i : grid0.Coords, EltTy.bits .f32 = 32 ∨ (Rect.block (s := S1007616x40) S12288x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x12288.size a ≤ S40x1007616.size a
  hwx0_1 : ∀ i : grid0.Coords, EltTy.bits .i32 = 32 ∨ (Rect.block (s := S40x1007616) S40x12288.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S12288x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S40x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩
abbrev S1x40 : Shape := ⟨2, ![1, 40]⟩
abbrev S1000000 : Shape := ⟨1, ![1000000]⟩

abbrev nBuf : Space → Nat
  | .hbm => 40
  | .vmem => 0
  | .smem => 0
  | _ => 0

abbrev bufTy : (tb : Table) → Fin (tcTables nBuf tb) → BufTy
  | .hbm, ⟨0, _⟩ => ⟨S1000000x40, .f32⟩
  | .hbm, ⟨1, _⟩ => ⟨S40x1000000, .i32⟩
  | .hbm, ⟨2, _⟩ => ⟨S40, .f32⟩
  | .hbm, ⟨3, _⟩ => ⟨S1000000x40, .i32⟩
  | .hbm, ⟨4, _⟩ => ⟨S1000000x40, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1000000x40, .f32⟩
  | .hbm, ⟨9, _⟩ => ⟨S1000000x40, .f32⟩
  | .hbm, ⟨10, _⟩ => ⟨S_, .f32⟩
  | .hbm, ⟨11, _⟩ => ⟨S1000000x40, .f32⟩
  | .hbm, ⟨12, _⟩ => ⟨S1000000x40, .f32⟩
  | .hbm, ⟨13, _⟩ => ⟨S1000000x40, .f32⟩
  | .hbm, ⟨14, _⟩ => ⟨S1000000x40, .f32⟩
  | .hbm, ⟨15, _⟩ => ⟨S_, .f32⟩
  | .hbm, ⟨16, _⟩ => ⟨S1000000x40, .f32⟩
  | .hbm, ⟨17, _⟩ => ⟨S1000000x40, .f32⟩
  | .hbm, ⟨18, _⟩ => ⟨S1000000x40, .f32⟩
  | .hbm, ⟨19, _⟩ => ⟨S1000000x40, .f32⟩
  | .hbm, ⟨20, _⟩ => ⟨S1000000x40, .f32⟩
  | .hbm, ⟨21, _⟩ => ⟨S1000000x40, .f32⟩
  | .hbm, ⟨22, _⟩ => ⟨S1000000x40, .f32⟩
  | .hbm, ⟨23, _⟩ => ⟨S1x40, .f32⟩
  | .hbm, ⟨24, _⟩ => ⟨S_, .f32⟩
  | .hbm, ⟨25, _⟩ => ⟨S1000000x40, .f32⟩
  | .hbm, ⟨26, _⟩ => ⟨S1000000x40, .f32⟩
  | .hbm, ⟨27, _⟩ => ⟨S_, .f32⟩
  | .hbm, ⟨28, _⟩ => ⟨S1000000x40, .f32⟩
  | .hbm, ⟨29, _⟩ => ⟨S1000000x40, .f32⟩
  | .hbm, ⟨30, _⟩ => ⟨S1000000x40, .f32⟩
  | .hbm, ⟨31, _⟩ => ⟨S1000000x40, .f32⟩
  | .hbm, ⟨32, _⟩ => ⟨S1000000x40, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S1000000, .f32⟩
  | .hbm, ⟨37, _⟩ => ⟨S1000000, .f32⟩
  | .hbm, ⟨38, _⟩ => ⟨S_, .f32⟩
  | .hbm, ⟨39, _⟩ => ⟨S_, .f32⟩
  | _, _ => ⟨S1000000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  transposes_S40x1000000_S1000000x40_1_0 : S40x1000000.Transposes [1, 0] S1000000x40
  bcast_S_S1000000x40 : S_.BroadcastsInDim S1000000x40 (![] : Fin 0 → Fin S1000000x40.rank)
  bcast_S40_S1x40_1 : S40.BroadcastsInDim S1x40 (![1] : Fin 1 → Fin S1x40.rank)
  bcast_S1x40_S1000000x40_0_1 : S1x40.BroadcastsInDim S1000000x40 (![0, 1] : Fin 2 → Fin S1000000x40.rank)
  reducesTo_S1000000x40_S1000000_d1 : S1000000x40.ReducesTo [1] S1000000
  h_S_ : 0 < S_.numel
  bcast_S_S1000000 : S_.BroadcastsInDim S1000000 (![] : Fin 0 → Fin S1000000.rank)
  reducesTo_S1000000_S_d0 : S1000000.ReducesTo [0] S_

variable [Facts₀]

class Facts : Prop extends Facts₀ where

variable [Facts]
-- ==== Proof.Pieces.lean ====
/-
  What one grid point leaves in the accumulator's one-word block, in each of the body's two control cases, as the
  body's own arithmetic of the values it loads:
  * at the first point the block is first set to zero, read back, and the point's contribution added to it;
  * at every later point the contribution is added to what the point before left.
  The contribution is one function (`k0_pay1` of `k0_pay3`) of the point's three input blocks.
-/
import proofs.«142688_j15968688407054_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl
theorem hz1 : (![0] : Fin 1 → Nat) = fun _ => 0 := funext fun a => by fin_cases a; rfl

/-- A later point: the block holding `xo` ends at the payload of the point's contribution and `xo`. -/
theorem out_B (c : Dev nD) (i : grid0.Coords) (a1 : Memref sig .tc .vmem S12288x40 .f32) (h1 : a1.IsWhole)
    (a2 : Memref sig .tc .vmem S40x12288 .i32) (h2 : a2.IsWhole) (a3 : Memref sig .tc .vmem S40 .f32) (h3 : a3.IsWhole)
    (a4 : Memref sig .tc .vmem S1x1 .f32) (h4 : a4.IsWhole) (hc : ¬cond0_0 i)
    (x0 : Vec F S12288x40 .f32) (x1 : Vec F S40x12288 .i32) (x2 : Vec F S40 .f32) (xo : Vec F S1x1 .f32) :
    out0_B_3 c i a1 h1 a2 h2 a3 h3 a4 h4 hc x0 x1 x2 xo = k0_pay1 (k0_pay3 i x0 x1 x2) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S12288x40) hz, View.ld_unit_zero (S := S40x12288) hz, View.ld_unit_zero (S := S1x1) hz,
    View.ld_unit_zero (S := S40) hz1]

/-- The first point: the block is set to the zero word, read back, and ends at the payload of the point's
    contribution and that zero. -/
theorem out_A (c : Dev nD) (i : grid0.Coords) (a1 : Memref sig .tc .vmem S12288x40 .f32) (h1 : a1.IsWhole)
    (a2 : Memref sig .tc .vmem S40x12288 .i32) (h2 : a2.IsWhole) (a3 : Memref sig .tc .vmem S40 .f32) (h3 : a3.IsWhole)
    (a4 : Memref sig .tc .vmem S1x1 .f32) (h4 : a4.IsWhole) (hc : cond0_0 i)
    (x0 : Vec F S12288x40 .f32) (x1 : Vec F S40x12288 .i32) (x2 : Vec F S40 .f32) :
    out0_A_3 c i a1 h1 a2 h2 a3 h3 a4 h4 hc x0 x1 x2 = k0_pay1 (k0_pay3 i x0 x1 x2) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S12288x40) hz, View.ld_unit_zero (S := S40x12288) hz, View.ld_unit_zero (S := S1x1) hz,
    View.ld_unit_zero (S := S40) hz1]

end Cert.KernelIdeal.Pieces

end
-- ==== Proof.LibTileSum.lean ====
/-
  Sums cut into equal tiles, and a nonnegative real factor moved across a finite sum of extended reals.

  * `sum_mul_coe`: on the extended reals a finite sum times a nonnegative REAL is the sum of the products. (Multiplying by
    such a factor is additive even where the summands are infinite of both signs: `(⊤ + ⊥) * c = ⊥ = ⊤ * c + ⊥ * c`.)
  * `sum_tiles`: a sequence of length `N` laid out in `T` tiles of `B` places each (`N ≤ T * B`), the places past `N`
    reading zero, sums tile by tile to the plain sum of the sequence — in any additive commutative monoid.
  * `pow_two_coe`: the real power with exponent `2` of a real base is the product of the base with itself.
-/
import Idealize.ShloMosaic.PureOps.Ideal
import Mathlib.Algebra.BigOperators.Fin
import Mathlib.Logic.Equiv.Fin.Basic

noncomputable section

namespace Cert.Lib.TileSum

open Idealize.ShloMosaic

/-- A finite sum of extended reals times a nonnegative real is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The places of a tiled sequence past its length read zero, so the tiles' sums add up to the sequence's sum. -/
theorem sum_tiles {M : Type*} [AddCommMonoid M] (T B N : ℕ) (hN : N ≤ T * B) (g : ℕ → M) :
    ∑ t : Fin T, ∑ r : Fin B, (if t.val * B + r.val < N then g (t.val * B + r.val) else 0)
      = ∑ n : Fin N, g n.val := by
  have h1 : ∑ t : Fin T, ∑ r : Fin B, (if t.val * B + r.val < N then g (t.val * B + r.val) else 0)
      = ∑ p : Fin T × Fin B, (fun n : Fin (T * B) => if n.val < N then g n.val else 0) (finProdFinEquiv p) := by
    rw [Fintype.sum_prod_type]
    refine Finset.sum_congr rfl fun t _ => Finset.sum_congr rfl fun r _ => ?_
    have e : (finProdFinEquiv (t, r)).val = t.val * B + r.val := by
      show r.val + B * t.val = _
      rw [Nat.mul_comm, Nat.add_comm]
    simp only [e]
  rw [h1, Equiv.sum_comp finProdFinEquiv (fun n : Fin (T * B) => if n.val < N then g n.val else 0),
    Fin.sum_univ_eq_sum_range (fun n => if n < N then g n else 0) (T * B),
    Fin.sum_univ_eq_sum_range (fun n => g n) N, ← Finset.sum_filter]
  refine Finset.sum_congr ?_ fun _ _ => rfl
  ext n
  simp only [Finset.mem_filter, Finset.mem_range]
  omega

/-- The real power of a real base with exponent `2`, read on the extended reals, is the base times itself. -/
theorem pow_two_coe (y : ℝ) : Ideal.pow (y : EReal) ((2 : ℝ) : EReal) = (y : EReal) * (y : EReal) := by
  rw [Ideal.pow_coe_coe, ← EReal.coe_mul]
  congr 1
  show y ^ (2 : ℝ) = y * y
  rw [Real.rpow_two, sq]

end Cert.Lib.TileSum

end
-- ==== Proof.Focal.lean ====
/-
  The focal loss that both programs compute, as one function of the three argument arrays.

  For sample `r` and attribute `a`, with `x` the predicted probability, `t` the 0/1 label read as a number and `w` the
  attribute's weight, the clipped probability is `p = min 1 (max ε x)` and the weighted cross-entropy term is

      loss = (w · (1 − x)²) · −(t · log p + (1 − t) · log (1 + (−p))).

  The kernel spells the square as a product and each negation as `0 − ·`; the reference spells the square as the real
  power with exponent `2` and negates directly. On the extended reals `0 − y = −y` always, and the power with
  exponent `2` is the product for a REAL base (`lossR_eq_lossK`); at an infinite base the two differ, which is
  where the finiteness of the probabilities is used. The result is the sum of the terms over all samples and
  attributes times `1/40` (`total`).

  Also here: the three float literals the comparison needs as reals, and the kernel's row mask: the signed 32-bit
  comparison of `i · 12288 + r` with `1000000` is the comparison of the numbers, no product or sum in range wrapping.
-/
import Idealize.ShloMosaic.PureOps.Ideal
import Idealize.ShloMosaic.PureOps.Ideal.Laws
import Idealize.ShloMosaic.Lib.ValueIdx
import proofs.«142688_j15968688407054_2_alg».proof.Proof.LibTileSum

noncomputable section

namespace Cert.Focal

open Idealize.ShloMosaic Idealize.ShloMosaic.ValueIdx

/-! ## The literals -/

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_forty : Ideal.ofBits .f32 0x42200000#32 = ((40 : ℝ) : EReal) := by
  simp [Ideal.ofBits, Ideal.ieee, -EReal.coe_mul]; norm_num

/-! ## The row mask -/

/-- Row `r` of tile `n` is a real sample exactly when the kernel's signed word comparison says so. -/
theorem mask_iff (n r : ℕ) (hn : n < 82) (hr : r < 12288) :
    IntOp.cmpi .slt (IntOp.addi (Scalar.muli (BitVec.ofNat 32 n) 12288#32) (BitVec.ofNat 32 r)) 1000000#32 = 1#1
      ↔ n * 12288 + r < 1000000 := by
  have hx : IntOp.addi (Scalar.muli (BitVec.ofNat 32 n) 12288#32) (BitVec.ofNat 32 r) = BitVec.ofNat 32 (n * 12288 + r) := by
    show BitVec.ofNat 32 n * 12288#32 + BitVec.ofNat 32 r = _
    rw [BitVec.ofNat_add, BitVec.ofNat_mul]
  rw [hx]
  have hk : n * 12288 + r < 2147483648 := by omega
  generalize n * 12288 + r = k at hk ⊢
  show BitVec.ofBool ((BitVec.ofNat 32 k).slt 1000000#32) = BitVec.ofBool true ↔ _
  have h32 : (2 : ℕ) ^ 32 = 4294967296 := by norm_num
  rw [BitVec.ofBool_eq_iff_eq, BitVec.slt_iff_toInt_lt, BitVec.toInt_ofNat', BitVec.toInt_ofNat', h32,
    Int.bmod_def, Int.bmod_def]
  push_cast
  split <;> omega

/-! ## One term of the loss -/

/-- The clipped probability `min 1 (max ε x)`. -/
def clip (x : EReal) : EReal := min (Ideal.ofBits .f32 0x3F800000#32) (max (Ideal.ofBits .f32 0x2B8CBCCC#32) x)

/-- One term, in the kernel's spelling: the square a product, the negations `0 − ·`. -/
def lossK (x w : EReal) (tg : BitVec 32) : EReal :=
  (w * ((Ideal.ofBits .f32 0x3F800000#32 - x) * (Ideal.ofBits .f32 0x3F800000#32 - x))) *
    (Ideal.ofBits .f32 0x00000000#32 -
      (FloatOps.sitofp (F := Ideal) .f32 tg * Ideal.log (clip x)
        + (Ideal.ofBits .f32 0x3F800000#32 - FloatOps.sitofp (F := Ideal) .f32 tg)
            * Ideal.log1p (Ideal.ofBits .f32 0x00000000#32 - clip x)))

/-- One term, in the reference's spelling: the square the real power with exponent `2`, the negations direct. -/
def lossR (x w : EReal) (tg : BitVec 32) : EReal :=
  (w * Ideal.pow (Ideal.ofBits .f32 0x3F800000#32 - x) (Ideal.ofBits .f32 0x40000000#32)) *
    -(FloatOps.sitofp (F := Ideal) .f32 tg * Ideal.log (clip x)
        + (Ideal.ofBits .f32 0x3F800000#32 - FloatOps.sitofp (F := Ideal) .f32 tg) * Ideal.log1p (-(clip x)))

/-- At a REAL probability the two spellings are one extended real. -/
theorem lossR_eq_lossK (x : ℝ) (w : EReal) (tg : BitVec 32) : lossR (x : EReal) w tg = lossK (x : EReal) w tg := by
  unfold lossR lossK
  rw [Ideal.ofBits_zero_f32, zero_sub, zero_sub, ofBits_one, ofBits_two, ← EReal.coe_sub,
    Cert.Lib.TileSum.pow_two_coe]

/-! ## The whole loss -/

/-- The loss: every term, summed over the million samples and the forty attributes, times `1/40`. -/
def total (X : (⟨2, ![1000000, 40]⟩ : Shape).Idx → EReal) (TG : (⟨2, ![40, 1000000]⟩ : Shape).Idx → BitVec 32)
    (W : (⟨1, ![40]⟩ : Shape).Idx → EReal) : EReal :=
  (∑ r : Fin 1000000, ∑ a : Fin 40, lossK (X (ix2 r a)) (W (ix1 a)) (TG (ix2 a r))) * (((1 / 40 : ℝ) : ℝ) : EReal)

/-- A sum over the indices of a one-axis shape is the sum over the axis. -/
theorem sum_idx1 {M : Type*} [AddCommMonoid M] {n : Nat} (f : (⟨1, ![n]⟩ : Shape).Idx → M) :
    ∑ j, f j = ∑ k : Fin n, f (ix1 k) :=
  Fintype.sum_equiv ⟨fun j => j 0, ix1, fun j => (eq_ix1 j).symm, fun _ => rfl⟩ _ _ fun j => congrArg f (eq_ix1 j)

/-- A sum over the indices of a `[1, n]` shape is the sum over its second axis. -/
theorem sum_idx_1n {M : Type*} [AddCommMonoid M] {n : Nat} (f : (⟨2, ![1, n]⟩ : Shape).Idx → M) :
    ∑ j, f j = ∑ k : Fin n, f (ix2 (0 : Fin 1) k) := by
  rw [sum_idx2, Fin.sum_univ_one]

end Cert.Focal

end
-- ==== Proof.Payload.lean ====
/-
  The body's arithmetic at the ideal values, read at an index.

  * `pay3_apply`: the per-attribute partial sum of a tile — entry `a` is the sum over the tile's 12288 rows of the loss
    term of (row, `a`), a row past the millionth sample contributing zero (the row mask compares the row's number in
    the whole batch, `i · 12288 + r`, with `1000000`).
  * `pay1_apply`: the accumulate step — the block's one word becomes the word it held plus the sum of the forty
    partial sums times the named constant, which at the ideal values is `1/40`.
  * `pay2_apply`: the reset word is zero.
-/
import proofs.«142688_j15968688407054_2_alg».proof.Proof.Gen.KernelIdeal.Skeleton
import proofs.«142688_j15968688407054_2_alg».proof.Proof.Focal
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Payload

open Idealize.ShloMosaic Idealize.ShloMosaic.ValueIdx
open Cert.KernelIdeal Cert.KernelIdeal.Gen Cert.Focal

/-! ## The tile's masked terms -/

/-- The loss terms of a tile as the body computes them from the probabilities `v4`, the labels `v7` (already
    transposed to rows × attributes) and the weights `v29` (already laid along every row). -/
def terms (v4 : FVec Ideal S12288x40 .f32) (v7 : IVec S12288x40 32) (v29 : FVec Ideal S12288x40 .f32) : FVec Ideal S12288x40 .f32 :=
  mulf (mulf v29 (mulf (subf (broadcast S12288x40 (Scalar.ofBits .f32 0x3F800000#32)) v4) (subf (broadcast S12288x40 (Scalar.ofBits .f32 0x3F800000#32)) v4)))
    (subf (broadcast S12288x40 (Scalar.ofBits .f32 0x00000000#32))
      (addf (mulf (sitofp .f32 v7) (log (minimumf (broadcast S12288x40 (Scalar.ofBits .f32 0x3F800000#32)) (maximumf (broadcast S12288x40 (Scalar.ofBits .f32 0x2B8CBCCC#32)) v4))))
        (mulf (subf (broadcast S12288x40 (Scalar.ofBits .f32 0x3F800000#32)) (sitofp .f32 v7))
          (log1p (subf (broadcast S12288x40 (Scalar.ofBits .f32 0x00000000#32)) (minimumf (broadcast S12288x40 (Scalar.ofBits .f32 0x3F800000#32)) (maximumf (broadcast S12288x40 (Scalar.ofBits .f32 0x2B8CBCCC#32)) v4)))))))

/-- At an index the body's term is the loss term of the three values there. -/
theorem terms_apply (v4 : FVec Ideal S12288x40 .f32) (v7 : IVec S12288x40 32) (v29 : FVec Ideal S12288x40 .f32) (j : S12288x40.Idx) :
    terms v4 v7 v29 j = lossK (v4 j) (v29 j) (v7 j) := rfl

/-- The row mask of tile `i`: the row's number in the whole batch is below the batch size. -/
def rowMask (i : grid0.Coords) : IVec S12288x40 1 :=
  cmpi .slt (addi (broadcast S12288x40 (Scalar.muli (BitVec.ofNat 32 (i 0).val) 12288#32)) (iota .tc S12288x40 32 [0] iota_S12288x40_d0_w32))
    (broadcast S12288x40 1000000#32)

theorem rowMask_apply (i : grid0.Coords) (r : Fin 12288) (a : Fin 40) :
    rowMask i (ix2 r a) = IntOp.cmpi .slt (IntOp.addi (Scalar.muli (BitVec.ofNat 32 (i 0).val) 12288#32) (BitVec.ofNat 32 r.val)) 1000000#32 := by
  show IntOp.cmpi .slt (IntOp.addi _ (iota .tc S12288x40 32 [0] iota_S12288x40_d0_w32 (ix2 r a))) _ = _
  rw [iota_single_apply]
  rfl

/-- A sum down the rows of a tile, at attribute `a`. -/
theorem rowsum (v : FVec Ideal S12288x40 .f32) (a : Fin 40) :
    multiReduction .add [0] S40 v 0x00000000#32 reduces_S12288x40_S40 (.inl rfl) rfl (ix1 a) = ∑ r : Fin 12288, v (ix2 r a) := by
  refine (Ideal.multiReduction_add_single v 0x00000000#32 reduces_S12288x40_S40 (.inl rfl) rfl (ix1 a)).trans ?_
  exact Finset.sum_congr rfl fun r _ => congrArg v (funext fun d => Fin.ext (by match d with | ⟨0, _⟩ => rfl | ⟨1, _⟩ => rfl))

/-- A sum along the one row of a `[1, 40]` vector. -/
theorem attrsum (v : FVec Ideal S1x40 .f32) :
    multiReduction .add [1] S1 v 0x00000000#32 reduces_S1x40_S1 (.inl rfl) rfl (ix1 (0 : Fin 1)) = ∑ a : Fin 40, v (ix2 (0 : Fin 1) a) := by
  refine (Ideal.multiReduction_add_single v 0x00000000#32 reduces_S1x40_S1 (.inl rfl) rfl (ix1 (0 : Fin 1))).trans ?_
  exact Finset.sum_congr rfl fun r _ => congrArg v (funext fun d => Fin.ext (by match d with | ⟨0, _⟩ => rfl | ⟨1, _⟩ => rfl))

/-- The per-attribute partial sums, restated over `terms` and `rowMask`. -/
theorem pay3_eq (i : grid0.Coords) (x0 : Vec Ideal S12288x40 .f32) (x1 : Vec Ideal S40x12288 .i32) (x2 : Vec Ideal S40 .f32) :
    k0_pay3 (F := Ideal) i x0 x1 x2
      = multiReduction .add [0] S40
          (select (rowMask i)
            (terms (shapeCast S12288x40 x0 shapeCasts_S12288x40_S12288x40)
              (transpose S12288x40 [1, 0] (shapeCast S40x12288 x1 shapeCasts_S40x12288_S40x12288) transposes_S40x12288_p1_0_S12288x40)
              (broadcastTo S12288x40 (shapeCast S1x40 x2 shapeCasts_S40_S1x40) broadcasts_S1x40_S12288x40))
            (broadcast S12288x40 (Scalar.ofBits .f32 0x00000000#32)))
          0x00000000#32 reduces_S12288x40_S40 (.inl rfl) rfl := rfl

/-- Entry `a` of a tile's partial sums: the masked loss terms of attribute `a` summed over the tile's rows. -/
theorem pay3_apply (i : grid0.Coords) (hi : (i 0).val < 82) (x0 : Vec Ideal S12288x40 .f32) (x1 : Vec Ideal S40x12288 .i32) (x2 : Vec Ideal S40 .f32)
    (a : Fin 40) :
    k0_pay3 (F := Ideal) i x0 x1 x2 (ix1 a)
      = ∑ r : Fin 12288, if (i 0).val * 12288 + r.val < 1000000 then lossK (x0 (ix2 r a)) (x2 (ix1 a)) (x1 (ix2 a r)) else 0 := by
  rw [pay3_eq, rowsum]
  refine Finset.sum_congr rfl fun r _ => ?_
  rw [select_apply, rowMask_apply, terms_apply, shapeCast_self, shapeCast_self,
    transpose_ix2_apply x1 transposes_S40x12288_p1_0_S12288x40 r a,
    broadcastTo_1b_ab_apply _ broadcasts_S1x40_S12288x40 r a, shapeCast_a_1a_apply x2 shapeCasts_S40_S1x40 0 a]
  by_cases h : (i 0).val * 12288 + r.val < 1000000
  · rw [if_pos h, (mask_iff (i 0).val r.val hi r.isLt).mpr h, select_one]
  · rw [if_neg h, eq_zero_of_ne_one (fun hm => h ((mask_iff (i 0).val r.val hi r.isLt).mp hm)), select_zero]
    exact Ideal.ofBits_zero_f32

/-! ## The accumulate step -/

/-- The kernel's named reciprocal denotes `1/40` at the ideal values. -/
theorem inv_40 : Named.named (F := Ideal) Cert.KernelIdeal.κ "inv_40" (φ := .f32) 0x3CCCCCCD#32 = (((1 / 40 : ℝ) : ℝ) : EReal) :=
  IdealRules.named_const.ideal_named_scalar _ _ _ _ rfl

theorem pay1_eq (v40 : FVec Ideal S40 .f32) (v46 : Vec Ideal S1x1 .f32) :
    k0_pay1 (F := Ideal) v40 v46
      = addf (shapeCast S1x1 v46 shapeCasts_S1x1_S1x1)
          (mulf (shapeCast S1x1 (multiReduction .add [1] S1 (shapeCast S1x40 v40 shapeCasts_S40_S1x40) 0x00000000#32 reduces_S1x40_S1 (.inl rfl) rfl) shapeCasts_S1_S1x1)
            (broadcast S1x1 (Named.named Cert.KernelIdeal.κ "inv_40" 0x3CCCCCCD#32))) := rfl

/-- The block's word after the step: what it held plus the forty partial sums' sum over forty. -/
theorem pay1_apply (v40 : FVec Ideal S40 .f32) (v46 : Vec Ideal S1x1 .f32) :
    k0_pay1 (F := Ideal) v40 v46 (ix2 (0 : Fin 1) (0 : Fin 1))
      = v46 (ix2 (0 : Fin 1) (0 : Fin 1)) + (∑ a : Fin 40, v40 (ix1 a)) * (((1 / 40 : ℝ) : ℝ) : EReal) := by
  rw [pay1_eq, addf_apply, mulf_apply, shapeCast_self, broadcast_apply, inv_40,
    shapeCast_a_1a_apply _ shapeCasts_S1_S1x1 0 0]
  rw [attrsum]
  congr 2
  exact Finset.sum_congr rfl fun a _ => shapeCast_a_1a_apply v40 shapeCasts_S40_S1x40 0 a

/-- The reset word is zero. -/
theorem pay2_apply (j : S1x1.Idx) : k0_pay2 (F := Ideal) j = 0 := Ideal.ofBits_zero_f32

end Cert.KernelIdeal.Payload

end
-- ==== Proof.Blocks.lean ====
/-
  What the kernel's three input windows hold at a grid point, read back to the argument arrays.

  The probabilities and the labels reach the kernel padded by the host to a whole number of tiles (7616 extra rows,
  resp. columns); tile `t` of the padded array starts at row (column) `t · 12288`, and a row below the millionth lies
  inside the unpadded array, where the padded array is the argument. The weights are staged whole at every point.
-/
import proofs.«142688_j15968688407054_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F] [Named F]
variable (m : (ℓ : Loc nD τ sig) → Buf (Elt F) ℓ)

/-- Where each window's block sits at point `t`: tile `t` along the batch axis, the whole of the other. -/
theorem index_facts : ∀ t : Fin cfg0.N,
    win0_0.index t 0 = t.val ∧ win0_0.index t 1 = 0 ∧ win0_1.index t 0 = 0 ∧ win0_1.index t 1 = t.val ∧ win0_2.index t 0 = 0 :=
  (by decide +kernel : ∀ t : Fin grid0.N,
    win0_0.index t 0 = t.val ∧ win0_0.index t 1 = 0 ∧ win0_1.index t 0 = 0 ∧ win0_1.index t 1 = t.val ∧ win0_2.index t 0 = 0)

/-- The padded probabilities, as the region finds them: the host's pad of the argument. -/
theorem V_probs (c : Dev nD) : (V m c main_v0 : S1007616x40.Idx → Elt F .f32)
    = pad S1007616x40 ![0, 0] ![7616, 0] ![0, 0] (m ((c : Thread nD τ).loc main_arg0)) (id (constant (F := F) S_ .f32 0x00000000#32))
        pads_S1000000x40_S1007616x40_076160_000 h_S_ := by
  dsimp only [V, V0]
  simp only [hostOps0, hostOps0_1, hostOps0_2, hostOps0_3, List.flatten_cons, List.flatten_nil, List.append_nil, List.cons_append,
    List.nil_append]
  after_results
  rfl

/-- The padded labels, as the region finds them: the host's pad of the argument. -/
theorem V_labels (c : Dev nD) : (V m c main_v1 : S40x1007616.Idx → Elt F .i32)
    = pad S40x1007616 ![0, 0] ![0, 7616] ![0, 0] (m ((c : Thread nD τ).loc main_arg1)) (id (constantI S_ 32 0#32))
        pads_S40x1000000_S40x1007616_000_076160 h_S_ := by
  dsimp only [V, V0]
  simp only [hostOps0, hostOps0_1, hostOps0_2, hostOps0_3, List.flatten_cons, List.flatten_nil, List.append_nil, List.cons_append,
    List.nil_append]
  after_results
  rfl

/-- Row `r` of tile `t` of the probabilities, a real sample, is row `t · 12288 + r` of the argument. -/
theorem probs_apply (c : Dev nD) (t : Fin cfg0.N) (r : Fin 12288) (a : Fin 40) (h : t.val * 12288 + r.val < 1000000) :
    (iblk m c 0 t : Vec F S12288x40 .f32) (ix2 r a)
      = m ((c : Thread nD τ).loc main_arg0) (ix2 (⟨t.val * 12288 + r.val, h⟩ : Fin 1000000) a) := by
  unfold iblk
  rw [View.read_apply]
  show V m c main_v0 _ = _
  refine (congrFun (V_probs m c) _).trans ?_
  refine pad_apply_of_inside _ _ _ _ _ _ _ _ (ix2 (⟨t.val * 12288 + r.val, h⟩ : Fin 1000000) a) fun d => ?_
  match d with
  | ⟨0, _⟩ =>
    show win0_0.index t 0 * 12288 + 1 * r.val = 0 + (t.val * 12288 + r.val) * (0 + 1)
    rw [(index_facts t).1]; omega
  | ⟨1, _⟩ =>
    show win0_0.index t 1 * 40 + 1 * a.val = 0 + a.val * (0 + 1)
    rw [(index_facts t).2.1]; omega

/-- Column `r` of tile `t` of the labels, a real sample, is column `t · 12288 + r` of the argument. -/
theorem labels_apply (c : Dev nD) (t : Fin cfg0.N) (r : Fin 12288) (a : Fin 40) (h : t.val * 12288 + r.val < 1000000) :
    (iblk m c 1 t : Vec F S40x12288 .i32) (ix2 a r)
      = m ((c : Thread nD τ).loc main_arg1) (ix2 a (⟨t.val * 12288 + r.val, h⟩ : Fin 1000000)) := by
  unfold iblk
  rw [View.read_apply]
  show V m c main_v1 _ = _
  refine (congrFun (V_labels m c) _).trans ?_
  refine pad_apply_of_inside _ _ _ _ _ _ _ _ (ix2 a (⟨t.val * 12288 + r.val, h⟩ : Fin 1000000)) fun d => ?_
  match d with
  | ⟨0, _⟩ =>
    show win0_1.index t 0 * 40 + 1 * a.val = 0 + a.val * (0 + 1)
    rw [(index_facts t).2.2.1]; omega
  | ⟨1, _⟩ =>
    show win0_1.index t 1 * 12288 + 1 * r.val = 0 + (t.val * 12288 + r.val) * (0 + 1)
    rw [(index_facts t).2.2.2.1]; omega

/-- The weights' block is the argument, at every point. -/
theorem weights_apply (c : Dev nD) (t : Fin cfg0.N) (a : Fin 40) :
    (iblk m c 2 t : Vec F S40 .f32) (ix1 a) = m ((c : Thread nD τ).loc main_arg2) (ix1 a) := by
  unfold iblk
  rw [View.read_apply]
  show V m c main_arg2 _ = _
  rw [V_main_arg2]
  refine congrArg _ (funext fun d => Fin.ext ?_)
  match d with
  | ⟨0, _⟩ =>
    show win0_2.index t 0 * 40 + 1 * a.val = a.val
    rw [(index_facts t).2.2.2.2]; omega

end Cert.KernelIdeal.Blocks

end
-- ==== Proof.Acc.lean ====
/-
  The accumulator over the grid.

  After point `n` the output block's one word is the sum of the contributions of points `0 … n` (`outsAt_eq`, by
  induction on the point: the first point resets the word to zero before adding, every later point adds to what the point
  before left). A point's contribution is the sum over attributes and over the tile's rows of the masked loss terms,
  times `1/40` (`contribOf`). Read back to the argument arrays, the tiles' rows below the millionth are the samples,
  each once (`Cert.Lib.TileSum.sum_tiles`), the factor `1/40` — a nonnegative real — moves out of the sum over the
  points, and the two sums commute: after the last point the word is the loss `Cert.Focal.total` of the arguments.
-/
import proofs.«142688_j15968688407054_2_alg».proof.Proof.Pieces
import proofs.«142688_j15968688407054_2_alg».proof.Proof.Payload
import proofs.«142688_j15968688407054_2_alg».proof.Proof.Blocks

noncomputable section

namespace Cert.KernelIdeal.Acc

open Idealize.ShloMosaic Idealize.ShloMosaic.TcCoe Idealize.SL.Sem Idealize.ShloMosaic.ValueIdx
open Cert.KernelIdeal Cert.KernelIdeal.Gen Cert.Focal

variable (m : (ℓ : Loc nD τ sig) → Buf (Elt Ideal) ℓ)

/-- The grid has one axis: a point's coordinate is its number. -/
theorem coords_val : ∀ t : Fin cfg0.N, (grid0.coords t 0).val = t.val :=
  (by decide +kernel : ∀ t : Fin grid0.N, (grid0.coords t 0).val = t.val)

/-- Tile `n`'s contribution, as a function of its three input blocks. -/
def contribOf (n : ℕ) (x0 : Vec Ideal S12288x40 .f32) (x1 : Vec Ideal S40x12288 .i32) (x2 : Vec Ideal S40 .f32) : EReal :=
  (∑ a : Fin 40, ∑ r : Fin 12288,
      if n * 12288 + r.val < 1000000 then lossK (x0 (ix2 r a)) (x2 (ix1 a)) (x1 (ix2 a r)) else 0)
    * (((1 / 40 : ℝ) : ℝ) : EReal)

/-- One accumulate step: the word becomes what it held plus the tile's contribution. -/
theorem step (i : grid0.Coords) (hi : (i 0).val < 82) (x0 : Vec Ideal S12288x40 .f32) (x1 : Vec Ideal S40x12288 .i32)
    (x2 : Vec Ideal S40 .f32) (xo : Vec Ideal S1x1 .f32) :
    k0_pay1 (F := Ideal) (k0_pay3 i x0 x1 x2) xo (ix2 (0 : Fin 1) (0 : Fin 1))
      = xo (ix2 (0 : Fin 1) (0 : Fin 1)) + contribOf (i 0).val x0 x1 x2 := by
  rw [Payload.pay1_apply]
  unfold contribOf
  congr 2
  exact Finset.sum_congr rfl fun a _ => Payload.pay3_apply i hi x0 x1 x2 a

/-- Point `t`'s contribution (zero past the grid). -/
def contribN (c : Dev nD) (t : ℕ) : EReal :=
  if h : t < cfg0.N then contribOf t (iblk m c 0 ⟨t, h⟩) (iblk m c 1 ⟨t, h⟩) (iblk m c 2 ⟨t, h⟩) else 0

theorem contribN_of_lt (c : Dev nD) (t : ℕ) (h : t < cfg0.N) :
    contribN m c t = contribOf t (iblk m c 0 ⟨t, h⟩) (iblk m c 1 ⟨t, h⟩) (iblk m c 2 ⟨t, h⟩) := dif_pos h

/-- After point `n` the block's word is the sum of the contributions of the points up to `n`. -/
theorem outsAt_eq (c : Dev nD) : ∀ (n : ℕ) (h : n < cfg0.N),
    outsAt0 m c n h (ix2 (0 : Fin 1) (0 : Fin 1)) = ∑ t ∈ Finset.range (n + 1), contribN m c t
  | 0, h => by
    have hc := coords_val ⟨0, h⟩
    rw [Finset.sum_range_one, contribN_of_lt m c 0 h]
    refine (congrFun (outsAt0_A m c ⟨0, h⟩ rfl) _).trans ?_
    refine (congrFun (Pieces.out_A c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk m c 0 ⟨0, h⟩) (iblk m c 1 ⟨0, h⟩) (iblk m c 2 ⟨0, h⟩)) _).trans ?_
    refine (step (grid0.coords ⟨0, h⟩) (by rw [hc]; dsimp only; omega) (iblk m c 0 ⟨0, h⟩) (iblk m c 1 ⟨0, h⟩) (iblk m c 2 ⟨0, h⟩)
      (k0_pay2 (F := Ideal))).trans ?_
    rw [Payload.pay2_apply, zero_add, hc]
  | n + 1, h => by
    have hN : cfg0.N = 82 := N_0
    have hB : ¬(⟨n + 1, h⟩ : Fin cfg0.N).val % 82 = 0 := by dsimp only; omega
    have hc := coords_val ⟨n + 1, h⟩
    rw [Finset.sum_range_succ, ← outsAt_eq c n (Nat.lt_of_succ_lt h), contribN_of_lt m c (n + 1) h]
    refine (congrFun (outsAt0_B m c ⟨n + 1, h⟩ hB) _).trans ?_
    refine (congrFun (Pieces.out_B c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩)
      (fun hh => hB ((hcond0_0 ⟨n + 1, h⟩).mp hh))
      (iblk m c 0 ⟨n + 1, h⟩) (iblk m c 1 ⟨n + 1, h⟩) (iblk m c 2 ⟨n + 1, h⟩)
      (outsAt0 m c ((⟨n + 1, h⟩ : Fin cfg0.N).val - 1) (Nat.lt_of_le_of_lt (Nat.sub_le _ _) (⟨n + 1, h⟩ : Fin cfg0.N).isLt))) _).trans ?_
    refine (step (grid0.coords ⟨n + 1, h⟩) (by rw [hc]; dsimp only; omega) (iblk m c 0 ⟨n + 1, h⟩) (iblk m c 1 ⟨n + 1, h⟩)
      (iblk m c 2 ⟨n + 1, h⟩) _).trans ?_
    rw [hc]
    rfl

/-! ## Back to the argument arrays -/

/-- Sample `n`'s loss term at attribute `a`, of the argument arrays (zero past the batch). -/
def term (c : Dev nD) (a : Fin 40) (n : ℕ) : EReal :=
  if h : n < 1000000 then
    lossK (m ((c : Thread nD τ).loc main_arg0) (ix2 (⟨n, h⟩ : Fin 1000000) a)) (m ((c : Thread nD τ).loc main_arg2) (ix1 a))
      (m ((c : Thread nD τ).loc main_arg1) (ix2 a (⟨n, h⟩ : Fin 1000000)))
  else 0

/-- A point's contribution over the argument arrays. -/
theorem contribN_eq (c : Dev nD) (t : Fin 82) :
    contribN m c t.val
      = (∑ a : Fin 40, ∑ r : Fin 12288, if t.val * 12288 + r.val < 1000000 then term m c a (t.val * 12288 + r.val) else 0)
          * (((1 / 40 : ℝ) : ℝ) : EReal) := by
  have ht : t.val < cfg0.N := by rw [show cfg0.N = 82 from N_0]; exact t.isLt
  rw [contribN_of_lt m c t.val ht]
  unfold contribOf
  congr 1
  refine Finset.sum_congr rfl fun a _ => Finset.sum_congr rfl fun r _ => ?_
  by_cases h : t.val * 12288 + r.val < 1000000
  · rw [if_pos h, if_pos h]
    unfold term
    rw [dif_pos h, Blocks.probs_apply m c ⟨t.val, ht⟩ r a h, Blocks.labels_apply m c ⟨t.val, ht⟩ r a h,
      Blocks.weights_apply m c ⟨t.val, ht⟩ a]
  · rw [if_neg h, if_neg h]

/-- All the points' contributions add up to the loss of the argument arrays. -/
theorem sum_contrib (c : Dev nD) :
    ∑ t : Fin 82, contribN m c t.val
      = total (m ((c : Thread nD τ).loc main_arg0)) (m ((c : Thread nD τ).loc main_arg1)) (m ((c : Thread nD τ).loc main_arg2)) := by
  simp only [contribN_eq]
  rw [← Cert.Lib.TileSum.sum_mul_coe Finset.univ _ (1 / 40) (by norm_num)]
  unfold total
  refine congrArg (· * (((1 / 40 : ℝ) : ℝ) : EReal)) ?_
  refine Finset.sum_comm.trans ?_
  refine Eq.trans ?_ Finset.sum_comm
  refine Finset.sum_congr rfl fun a _ => ?_
  rw [Cert.Lib.TileSum.sum_tiles 82 12288 1000000 (by norm_num) (term m c a)]
  refine Finset.sum_congr rfl fun n _ => ?_
  unfold term
  rw [dif_pos n.isLt]

/-- After the last point the block's word is the loss. -/
theorem last_eq (c : Dev nD) (h : 81 < cfg0.N) :
    outsAt0 m c 81 h (ix2 (0 : Fin 1) (0 : Fin 1))
      = total (m ((c : Thread nD τ).loc main_arg0)) (m ((c : Thread nD τ).loc main_arg1)) (m ((c : Thread nD τ).loc main_arg2)) := by
  rw [outsAt_eq m c 81 h, Finset.sum_range, sum_contrib]

end Cert.KernelIdeal.Acc

end
-- ==== Proof.KernelValue.lean ====
/-
  The kernel's result array after the run.

  The output window's block never moves and is written back once, after the last point, so the `[1, 1]` result array
  ends holding what the last point left in the block.
-/
import proofs.«142688_j15968688407054_2_alg».proof.Proof.Acc
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.Focal

variable (m : (ℓ : Loc nD τ sig) → Buf (Elt Ideal) ℓ) (ρ : Dev nD → PrngReg)

/-- The last grid point. -/
def tLast : Fin cfg0.N := ⟨81, by rw [show cfg0.N = 82 from N_0]; decide⟩

/-- What the last point leaves in the output block, as contents of the `[1, 1]` result array. -/
abbrev block (c : Dev nD) : Buf (Elt Ideal) ((c : Thread nD τ).loc main_v2) := outsAt0 m c 81 tLast.isLt

/-- The one write-back, after the last point, writes it: block (0, 0) of the `[1, 1]` array is the array. -/
theorem flushed_eq (c : Dev nD) (t : Fin cfg0.N) (hf : (cfg0.win 3).flush t = true) :
    (dats m 0 c).flushed 3 t = ((cfg0.win 3).blk t).view.read (Elt Ideal) (block m c) := by
  have hN : cfg0.N = 82 := N_0
  have h81 : t.val = 81 := by have := (flush0_3 t).mp hf; have := t.isLt; omega
  obtain rfl : t = tLast := Fin.ext h81
  show (cfg0.win 3).cut (grid0.coords tLast) ((dats m 0 c).after 3 tLast) = _
  rw [after0_3]
  have hz' : (fun a => win0_3.index tLast a * main_v2.ty.shape.size a) = fun _ => 0 :=
    funext fun a => by fin_cases a <;> decide +kernel
  exact (Memref.read_access_unit_zero (Elt Ideal) main_v2 hz' (fun a => by rw [congrFun hz' a]; simp) (block m c)).symm

/-- So the result array ends holding what the last point left. -/
theorem final (c : Dev nD) : (dats m 0 c).arrAt 3 cfg0.N = block m c :=
  (dats m 0 c).arrAt_eq_of_cover 3 (block m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

end Cert.KernelIdeal.Result

end
-- ==== Proof.KernelRun.lean ====
/-
  The kernel's run, read: its result is the loss of its arguments.

  The `[1, 1]` result array ends holding what the last point left in the output block
  (`Cert.KernelIdeal.Result.final`); the host's reshape after the region reads that one word as the scalar result; and
  that word is the loss (`Cert.KernelIdeal.Acc.last_eq`). The arguments end as launched.
-/
import proofs.«142688_j15968688407054_2_alg».proof.Proof.KernelValue

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.Focal

variable (m : (ℓ : Loc nD τ sig) → Buf (Elt Ideal) ℓ) (ρ : Dev nD → PrngReg)

/-- The host's reshape after the region reads the result array's one word. -/
theorem tail_eq (c : Dev nD) :
    Pipeline.afterTail₀ cfgs (dats m) 0 (V0 m) [hostOps1] c main_v3 = shapeCast S_ (block m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = block m c :=
    (Pipeline.withArrays_arr spec0 launch0.win.arr_inj c _ _ 3).trans (final m c)
  rw [e]
  rfl

/-- The scalar result after the run is the loss of the arguments. -/
theorem value_eq (c : Dev nD) :
    Pipeline.afterTail₀ cfgs (dats m) 0 (V0 m) [hostOps1] c main_v3
      = fun _ => total (m ((c : Thread nD τ).loc main_arg0)) (m ((c : Thread nD τ).loc main_arg1)) (m ((c : Thread nD τ).loc main_arg2)) := by
  rw [tail_eq]
  funext i
  rw [eq_ix0 i]
  exact (shapeCast_apply (block m c) shapeCasts_S1x1_S_ ix0 (ix2 (0 : Fin 1) (0 : Fin 1)) rfl).trans
    (Acc.last_eq m c tLast.isLt)

/-- Every weakly fair execution of the idealized kernel terminates with its result at the loss of its arguments and its
    arguments as launched. -/
theorem run : θ_run defs (onTc (τ := τ) (main (F := Ideal))) ⟨m, fun _ => 0, ρ⟩ fun r => ∀ c : Dev nD,
      r.2.mem ((c.tc : Thread nD τ).loc main_v3)
        = (fun _ => total (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result

end
-- ==== Proof.RefValue.lean ====
/-
  The reference, read index by index, is the loss `Cert.Focal.total` of its arguments.

  Its last value is `0 + ∑ r, q r`, with `q r = (0 + ∑ a, term r a) / 40` the mean over the attributes of sample `r`;
  dividing an extended real by the real `40` is multiplying it by `1/40`, and that factor moves out of the sum over
  the samples because it is a nonnegative real. Each term is the reference's spelling of the loss term, which at a real
  probability is the kernel's (the one place the probabilities' finiteness is used).
-/
import proofs.«142688_j15968688407054_2_alg».proof.Proof.Gen.ReferenceIdeal.Read
import proofs.«142688_j15968688407054_2_alg».proof.Proof.Focal

noncomputable section

namespace Cert.ReferenceIdeal.RefValue

open Cert.ReferenceIdeal Cert.ReferenceIdeal.Read Idealize.ShloMosaic Idealize.ShloMosaic.ValueIdx Cert.Focal

/-- The product the two sums run over, at sample `r` and attribute `a`: the reference's spelling of the loss term. -/
theorem term_apply (X : (⟨S1000000x40, .f32⟩ : BufTy).Contents (Elt Ideal)) (TG : (⟨S40x1000000, .i32⟩ : BufTy).Contents (Elt Ideal))
    (W : (⟨S40, .f32⟩ : BufTy).Contents (Elt Ideal)) (r : Fin 1000000) (a : Fin 40) :
    val_main_v19 (F := Ideal) X TG W (ix2 r a) = lossR (X (ix2 r a)) (W (ix1 a)) (TG (ix2 a r)) := by
  have e0 : idx_main_v0 (ix2 r a) = ix2 a r :=
    funext fun d => Fin.ext (by match d with | ⟨0, _⟩ => rfl | ⟨1, _⟩ => rfl)
  have e12 : idx_main_v12 (idx_main_v17 (ix2 r a)) = ix1 a :=
    funext fun d => Fin.ext (by match d with | ⟨0, _⟩ => rfl)
  simp only [val_main_v19_apply, val_main_v18_apply, val_main_v17_apply, val_main_v12_apply, val_main_v16_apply,
    val_main_v14_apply, val_main_v13_apply, val_main_cst_2_apply, val_main_v15_apply, val_main_cst_3_apply,
    val_main_v11_apply, val_main_v10_apply, val_main_v4_apply, val_main_v1_apply, val_main_v0_apply, val_main_v3_apply,
    val_main_v2_apply, val_main_call0_v4_apply, val_main_call0_v3_apply, val_main_cst_0_apply, val_main_call0_v2_apply,
    val_main_call0_v1_apply, val_main_call0_v0_apply, val_main_cst_apply, val_main_v9_apply, val_main_v6_apply,
    val_main_v5_apply, val_main_cst_1_apply, val_main_v8_apply, val_main_v7_apply, e0, e12]
  rfl

/-- The reference's result, at real probabilities, is the loss. -/
theorem result_eq (X : (⟨S1000000x40, .f32⟩ : BufTy).Contents (Elt Ideal)) (TG : (⟨S40x1000000, .i32⟩ : BufTy).Contents (Elt Ideal))
    (W : (⟨S40, .f32⟩ : BufTy).Contents (Elt Ideal)) (hX : ∀ j, ∃ x : ℝ, X j = (x : EReal)) (i : S_.Idx) :
    val_main_v23 (F := Ideal) X TG W i = total X TG W := by
  have hrow : ∀ r : Fin 1000000, val_main_v22 (F := Ideal) X TG W (ix1 r)
      = (∑ a : Fin 40, lossK (X (ix2 r a)) (W (ix1 a)) (TG (ix2 a r))) * (((1 / 40 : ℝ) : ℝ) : EReal) := by
    intro r
    rw [val_main_v22_apply, val_main_v20_apply, val_main_v21_apply]
    show Ideal.div (Ideal.ofBits .f32 0x00000000#32 + ∑ k : Fin 40, _) (Ideal.ofBits .f32 0x42200000#32) = _
    rw [Ideal.ofBits_zero_f32, zero_add, ofBits_forty, Ideal.div_coe (by norm_num : (40 : ℝ) ≠ 0)]
    congr 1
    refine Finset.sum_congr rfl fun a _ => ?_
    have e : idx_main_v20 (ix1 r) a = ix2 r a :=
      funext fun d => Fin.ext (by match d with | ⟨0, _⟩ => rfl | ⟨1, _⟩ => rfl)
    rw [e, term_apply]
    obtain ⟨x, hx⟩ := hX (ix2 r a)
    rw [hx, lossR_eq_lossK]
  rw [val_main_v23_apply, sum_idx1]
  simp only [hrow]
  show Ideal.ofBits .f32 0x00000000#32 + _ = _
  rw [Ideal.ofBits_zero_f32, zero_add]
  unfold total
  exact (Cert.Lib.TileSum.sum_mul_coe Finset.univ _ (1 / 40) (by norm_num)).symm

end Cert.ReferenceIdeal.RefValue

end
-- ==== Proof.Finite.lean ====
/-
  From the precondition to real probabilities.

  The precondition is the conjunction of two `all`s: every probability and every weight has absolute value below
  `+∞`. An extended real whose absolute value `max x (−x)` is below `⊤` is neither `⊤` nor `⊥`: it is a real.
-/
import proofs.«142688_j15968688407054_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun _ _ => funext fun d => d.elim0⟩

/-- The positive infinity's pattern denotes `⊤`. -/
theorem ofBits_inf : Ideal.ofBits .f32 0x7F800000#32 = ⊤ := by simp [Ideal.ofBits, Ideal.ieee]

/-- An extended real whose absolute value compares below `+∞` is a real. -/
theorem real_of_abs_lt_inf (x : EReal) (h : Ideal.cmp .olt (max x (-x)) (Ideal.ofBits .f32 0x7F800000#32) = 1#1) :
    ∃ r : ℝ, x = (r : EReal) := by
  rw [ofBits_inf] at h
  have h' : max x (-x) < ⊤ := by
    have : BitVec.ofBool (decide (max x (-x) < ⊤)) = BitVec.ofBool true := h
    exact of_decide_eq_true (BitVec.ofBool_eq_iff_eq.mp this)
  induction x using EReal.rec with
  | bot => simp at h'
  | coe r => exact ⟨r, rfl⟩
  | top => simp at h'

/-- Under the precondition every probability is a real. -/
theorem probs_real [Cert.Pre_finite_inputs.Facts] (X : FVec Ideal Cert.Pre_finite_inputs.S1000000x40 .f32)
    (TG : IVec Cert.Pre_finite_inputs.S40x1000000 32) (W : FVec Ideal Cert.Pre_finite_inputs.S40 .f32)
    (h : Cert.Pre_finite_inputs.fn (F := Ideal) X TG W = fun _ => 1#1) (j : Cert.Pre_finite_inputs.S1000000x40.Idx) :
    ∃ r : ℝ, X j = (r : EReal) := by
  have h0 := congrFun h ix0
  dsimp only [Cert.Pre_finite_inputs.fn] at h0
  have h1 := (IntOp.andi_eq_one.mp h0).1
  have h2 := Host.reduce_andi_all _ _ _ _ ix0 h1 j
  exact real_of_abs_lt_inf (X j) h2

end Cert.Finite

end
-- ==== Proof.lean ====
/-
  The certificate of a focal-loss kernel against its reference.

  Both programs compute, of probabilities `x` (a million samples × forty attributes), 0/1 labels `t` (stored
  attribute-first) and forty attribute weights `w`, the loss

      ( ∑ r, ∑ a, (w a · (1 − x r a)²) · −(t a r · log p + (1 − t a r) · log (1 + (−p))) ) · 1/40,   p = min 1 (max ε (x r a)).

  The reference takes the mean over the attributes of each sample (a division by `40`) and sums the means. The kernel
  walks the batch in 82 tiles of 12288 rows (the host pads the batch to a whole number of tiles, and the body masks the
  rows past the millionth to zero), sums each tile whole, multiplies the tile's sum by a constant named `1/40`, and
  accumulates the products in a one-word block it resets at the first tile and writes back after the last; a host reshape
  reads the word as the scalar result.

  At the ideal values the two agree because a division by the real `40` is a product with `1/40`, a nonnegative real
  factor moves across a finite sum of extended reals whatever their signs and infinities, sums over tiles and rows
  re-index to the sum over the samples, and the reference's real power with exponent `2` is the kernel's product at a
  REAL base — the one place the precondition (finite probabilities) is used.

  The modules: `LibTileSum` (the two summation laws and the power), `Focal` (the loss term in both spellings, the loss,
  the literals, the row mask), `RefValue` (the reference is the loss), `Pieces` / `Payload` / `Blocks` / `Acc` /
  `KernelValue` / `KernelRun` (the kernel's cases, its arithmetic at an index, its blocks, the accumulation, its result array, its run), `Finite`
  (the precondition read back).
-/
import proofs.«142688_j15968688407054_2_alg».proof.Defs
import proofs.«142688_j15968688407054_2_alg».proof.Proof.Gen.Kernel
import proofs.«142688_j15968688407054_2_alg».proof.Proof.Gen.Kernel.Skeleton
import proofs.«142688_j15968688407054_2_alg».proof.Proof.Gen.Kernel.Launch
import proofs.«142688_j15968688407054_2_alg».proof.Proof.Gen.Kernel.Points
import proofs.«142688_j15968688407054_2_alg».proof.Proof.Gen.Kernel.Frame
import proofs.«142688_j15968688407054_2_alg».proof.Proof.Gen.KernelIdeal
import proofs.«142688_j15968688407054_2_alg».proof.Proof.Gen.KernelIdeal.Skeleton
import proofs.«142688_j15968688407054_2_alg».proof.Proof.Gen.KernelIdeal.Launch
import proofs.«142688_j15968688407054_2_alg».proof.Proof.Gen.KernelIdeal.Points
import proofs.«142688_j15968688407054_2_alg».proof.Proof.Gen.KernelIdeal.Frame
import proofs.«142688_j15968688407054_2_alg».proof.Proof.Gen.ReferenceIdeal
import proofs.«142688_j15968688407054_2_alg».proof.Proof.Gen.ReferenceIdeal.Run
import proofs.«142688_j15968688407054_2_alg».proof.Proof.Gen.ReferenceIdeal.Read
import proofs.«142688_j15968688407054_2_alg».proof.Proof.Gen.Pre_finite_inputs
import proofs.«142688_j15968688407054_2_alg».proof.Proof.KernelRun
import proofs.«142688_j15968688407054_2_alg».proof.Proof.RefValue
import proofs.«142688_j15968688407054_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: the constant `0.025` is named `1/40`, which it denotes at the ideal values. -/
theorem preserves : Cert.preserves_Kernel_KernelIdeal :=
  IdealRules.named_const.statement Cert.KernelIdeal.κ "inv_40" .f32 0x3CCCCCCD#32 ((1 / 40 : ℝ) : EReal) rfl

/-- At the ideal values both programs end at the loss of the (agreeing) arguments. -/
theorem algebraic : Cert.algebraic_KernelIdeal_ReferenceIdeal := by
  intro m ρ m' ρ' hpre hagree
  refine ⟨fun c _ => Cert.Focal.total (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq]
  funext i
  have hfin : ∀ j, ∃ x : ℝ, m' ((c.tc : Thread Cert.ReferenceIdeal.nD Cert.ReferenceIdeal.τ).loc Cert.ReferenceIdeal.main_arg0) j = (x : EReal) := by
    intro j
    rw [(hagree c).1]
    exact Cert.Finite.probs_real _ _ _ (hpre c) j
  rw [Cert.ReferenceIdeal.RefValue.result_eq _ _ _ hfin i, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
